-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4x512x10x8 : Shape := ⟨5, ![256, 4, 512, 10, 8]⟩
abbrev S_ : Shape := ⟨0, ![]⟩

class Facts : Prop where
  bcast_S_S256x4x512x10x8 : S_.BroadcastsInDim S256x4x512x10x8 (![] : Fin 0 → Fin S256x4x512x10x8.rank)
  reducesTo_S256x4x512x10x8_S_d0_1_2_3_4 : S256x4x512x10x8.ReducesTo [0, 1, 2, 3, 4] S_
  h_S_ : 0 < S_.numel

variable [Facts]

def fn {F : FTy → Type} [FloatOps F] (main_arg0 : FVec F S256x4x512x10x8 .f32) : IVec S_ 1 :=
  let main_v0 : FVec F S256x4x512x10x8 .f32 := Host.absf main_arg0
  let main_cst : FVec F S_ .f32 := constant S_ .f32 0x7F800000#32
  let main_v1 : FVec F S256x4x512x10x8 .f32 := broadcastInDim S256x4x512x10x8 ![] bcast_S_S256x4x512x10x8 main_cst
  let main_v2 : IVec S256x4x512x10x8 1 := cmpf .olt main_v0 main_v1
  let main_c : IVec S_ 1 := constantI S_ 1 1#1
  let main_v3 : IVec S_ 1 := (fun x v => Host.reduce IntOp.andi x v reducesTo_S256x4x512x10x8_S_d0_1_2_3_4 h_S_) main_v2 main_c
  main_v3
-- ==== Kernel.lean ====
abbrev S256x4x512x10x8 : Shape := ⟨5, ![256, 4, 512, 10, 8]⟩
abbrev S1024x512x10x8 : Shape := ⟨4, ![1024, 512, 10, 8]⟩
abbrev S1024x171x10x8 : Shape := ⟨4, ![1024, 171, 10, 8]⟩
abbrev S2x512x10x8 : Shape := ⟨4, ![2, 512, 10, 8]⟩
abbrev S2x171x10x8 : Shape := ⟨4, ![2, 171, 10, 8]⟩
abbrev S2x510x10x8 : Shape := ⟨4, ![2, 510, 10, 8]⟩
abbrev S2x170x3x10x8 : Shape := ⟨5, ![2, 170, 3, 10, 8]⟩
abbrev S2x170x10x8 : Shape := ⟨4, ![2, 170, 10, 8]⟩
abbrev S2x1x10x8 : Shape := ⟨4, ![2, 1, 10, 8]⟩
abbrev S2x10x8 : Shape := ⟨3, ![2, 10, 8]⟩
abbrev S256x4x171x10x8 : Shape := ⟨5, ![256, 4, 171, 10, 8]⟩

abbrev nBuf : Space → Nat
  | .hbm => 4
  | .vmem => 4
  | .smem => 0
  | _ => 0

abbrev bufTy : (tb : Table) → Fin (tcTables nBuf tb) → BufTy
  | .hbm, ⟨0, _⟩ => ⟨S256x4x512x10x8, .f32⟩
  | .hbm, ⟨1, _⟩ => ⟨S1024x512x10x8, .f32⟩
  | .hbm, ⟨2, _⟩ => ⟨S1024x171x10x8, .f32⟩
  | .hbm, ⟨3, _⟩ => ⟨S256x4x171x10x8, .f32⟩
  | .local _ .vmem, ⟨0, _⟩ => ⟨S2x512x10x8, .f32⟩
  | .local _ .vmem, ⟨1, _⟩ => ⟨S2x512x10x8, .f32⟩
  | .local _ .vmem, ⟨2, _⟩ => ⟨S2x171x10x8, .f32⟩
  | .local _ .vmem, ⟨3, _⟩ => ⟨S2x171x10x8, .f32⟩
  | _, _ => ⟨S256x4x512x10x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![512], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x512x10x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x171x10x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S256x4x512x10x8_S1024x512x10x8 : S256x4x512x10x8.ShapeCasts S1024x512x10x8
  inb_S2x512x10x8_S2x512x10x8_0_0_0_0 : ∀ a, (![0, 0, 0, 0] : Fin 4 → Nat) a + S2x512x10x8.size a ≤ S2x512x10x8.size a
  h_S2x512x10x8 : 0 < S2x512x10x8.numel
  shapeCasts_S2x512x10x8_S2x512x10x8 : S2x512x10x8.ShapeCasts S2x512x10x8
  slices_S2x512x10x8_o0_0_0_0_S2x510x10x8 : S2x512x10x8.Slices ![0, 0, 0, 0] S2x510x10x8
  shapeCasts_S2x510x10x8_S2x170x3x10x8 : S2x510x10x8.ShapeCasts S2x170x3x10x8
  reduces_S2x170x3x10x8_S2x170x10x8 : S2x170x3x10x8.Reduces [2] S2x170x10x8
  inb_S2x171x10x8_S2x170x10x8_0_0_0_0 : ∀ a, (![0, 0, 0, 0] : Fin 4 → Nat) a + S2x170x10x8.size a ≤ S2x171x10x8.size a
  h_S2x170x10x8 : 0 < S2x170x10x8.numel
  slices_S2x512x10x8_o0_510_0_0_S2x1x10x8 : S2x512x10x8.Slices ![0, 510, 0, 0] S2x1x10x8
  shapeCasts_S2x1x10x8_S2x10x8 : S2x1x10x8.ShapeCasts S2x10x8
  slices_S2x512x10x8_o0_511_0_0_S2x1x10x8 : S2x512x10x8.Slices ![0, 511, 0, 0] S2x1x10x8
  inb_S2x171x10x8_S2x1x10x8_0_170_0_0 : ∀ a, (![0, 170, 0, 0] : Fin 4 → Nat) a + S2x1x10x8.size a ≤ S2x171x10x8.size a
  h_S2x1x10x8 : 0 < S2x1x10x8.numel
  shapeCasts_S2x10x8_S2x1x10x8 : S2x10x8.ShapeCasts S2x1x10x8
  shapeCasts_S1024x171x10x8_S256x4x171x10x8 : S1024x171x10x8.ShapeCasts S256x4x171x10x8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x10x8.size a ≤ S1024x512x10x8.size a
  hwx0_0 : ∀ i : grid0.Coords, EltTy.bits .f32 = 32 ∨ (Rect.block (s := S1024x512x10x8) S2x512x10x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x171x10x8.size a ≤ S1024x171x10x8.size a
  hwx0_1 : ∀ i : grid0.Coords, EltTy.bits .f32 = 32 ∨ (Rect.block (s := S1024x171x10x8) S2x171x10x8.size (cc0_transform_1 i) (hinb0_1 i)).WholeWords (EltTy.packing .f32)

variable [Facts₀]

abbrev win0_0 : Pipeline.Window sig grid0 :=
  Pipeline.Window.ofSpec (Memref.whole main_v0) S2x512x10x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x171x10x8.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x4x512x10x8 : Shape := ⟨5, ![256, 4, 512, 10, 8]⟩
abbrev S_ : Shape := ⟨0, ![]⟩
abbrev S256x4x513x10x8 : Shape := ⟨5, ![256, 4, 513, 10, 8]⟩
abbrev S256x4x171x3x10x8 : Shape := ⟨6, ![256, 4, 171, 3, 10, 8]⟩
abbrev S256x4x171x10x8 : Shape := ⟨5, ![256, 4, 171, 10, 8]⟩

abbrev nBuf : Space → Nat
  | .hbm => 7
  | .vmem => 0
  | .smem => 0
  | _ => 0

abbrev bufTy : (tb : Table) → Fin (tcTables nBuf tb) → BufTy
  | .hbm, ⟨0, _⟩ => ⟨S256x4x512x10x8, .f32⟩
  | .hbm, ⟨1, _⟩ => ⟨S_, .i32⟩
  | .hbm, ⟨2, _⟩ => ⟨S_, .f32⟩
  | .hbm, ⟨3, _⟩ => ⟨S256x4x513x10x8, .f32⟩
  | .hbm, ⟨4, _⟩ => ⟨S256x4x171x3x10x8, .f32⟩
  | .hbm, ⟨5, _⟩ => ⟨S_, .f32⟩
  | .hbm, ⟨6, _⟩ => ⟨S256x4x171x10x8, .f32⟩
  | _, _ => ⟨S256x4x512x10x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  pads_S256x4x512x10x8_S256x4x513x10x8_000_000_010_000_000 : S256x4x512x10x8.Pads (![0, 0, 0, 0, 0] : Fin 5 → Nat) ![0, 0, 1, 0, 0] ![0, 0, 0, 0, 0] S256x4x513x10x8
  h_S_ : 0 < S_.numel
  shapeCasts_S256x4x513x10x8_S256x4x171x3x10x8 : S256x4x513x10x8.ShapeCasts S256x4x171x3x10x8
  reducesTo_S256x4x171x3x10x8_S256x4x171x10x8_d3 : S256x4x171x3x10x8.ReducesTo [3] S256x4x171x10x8

variable [Facts₀]

class Facts : Prop extends Facts₀ where

variable [Facts]
-- ==== Proof.Stores.lean ====
/-
  What the body leaves in the output's staging buffer, read through its two stores.

  The body stores rows 0 … 169 first and row 170 last; the two rectangles are disjoint and together fill the
  buffer. So row 170 of the buffer holds the last store's value, and a row below 170 — outside the last store's
  rectangle — holds the first store's value at the same position.
-/
import proofs.«146789_j27994596836269_2_alg».proof.Proof.Gen.KernelIdeal.Frame
import Idealize.ShloMosaic.Lib.WritesUnit
import Idealize.ShloMosaic.Lib.Pipeline.Value
import Idealize.ShloMosaic.Lib.ValueIdx
import Idealize.ShloMosaic.Lib.Tactic

noncomputable section

namespace Cert.KernelIdeal.Stores

open Cert.KernelIdeal Cert.KernelIdeal.Gen
open Idealize.ShloMosaic Idealize.ShloMosaic.TcCoe Idealize.ShloMosaic.ValueIdx Idealize.SL.Sem

section TwoStores

variable {sg : RefSig} {κ : Kind} {sp : Space} {e : EltTy} {Val : EltTy → Type}
variable (v : View sg κ sp S2x171x10x8 e) (f : v.ty.Contents Val)
variable (inbL : ∀ a, (![0, 170, 0, 0] : Fin 4 → Nat) a + (![2, 1, 10, 8] : Fin 4 → Nat) a ≤ S2x171x10x8.size a)
variable (inbF : ∀ a, (![0, 0, 0, 0] : Fin 4 → Nat) a + (![2, 170, 10, 8] : Fin 4 → Nat) a ≤ S2x171x10x8.size a)
variable (wL : (Rect.unit (s := S2x171x10x8) ![0, 170, 0, 0] ![2, 1, 10, 8] inbL).shape.Idx → Val e)
variable (wF : (Rect.unit (s := S2x171x10x8) ![0, 0, 0, 0] ![2, 170, 10, 8] inbF).shape.Idx → Val e)

/-- Row 170 is under the newest store, at its row 0. -/
theorem read_last (b : Fin 2) (cc : Fin 10) (r : Fin 8) :
    v.read Val (v.writes Val f [(⟨Rect.unit ![0, 170, 0, 0] ![2, 1, 10, 8] inbL, wL⟩ : View.Piece Val S2x171x10x8 e),
        ⟨Rect.unit ![0, 0, 0, 0] ![2, 170, 10, 8] inbF, wF⟩]) (ix4 b (⟨170, by decide⟩ : Fin 171) cc r)
      = wL (ix4 b (0 : Fin 1) cc r) :=
  View.read_writes_cons_unit_of_mem (off' := ![0, 170, 0, 0]) v f inbL wL _ _ (ix4 b (0 : Fin 1) cc r) rfl fun a => by
    match a with
    | ⟨0, _⟩ => show b.val = 0 + b.val; omega
    | ⟨1, _⟩ => show 170 = 170 + 0; omega
    | ⟨2, _⟩ => show cc.val = 0 + cc.val; omega
    | ⟨3, _⟩ => show r.val = 0 + r.val; omega

/-- A row below 170 is outside the newest store and under the first one, at the same position. -/
theorem read_full (b : Fin 2) (g : Fin 170) (cc : Fin 10) (r : Fin 8) :
    v.read Val (v.writes Val f [(⟨Rect.unit ![0, 170, 0, 0] ![2, 1, 10, 8] inbL, wL⟩ : View.Piece Val S2x171x10x8 e),
        ⟨Rect.unit ![0, 0, 0, 0] ![2, 170, 10, 8] inbF, wF⟩])
        (ix4 b (⟨g.val, by have := g.isLt; omega⟩ : Fin 171) cc r)
      = wF (ix4 b g cc r) :=
  (View.read_writes_cons_unit_of_not_mem (off' := ![0, 170, 0, 0]) v f inbL wL _ _ rfl ⟨1, by decide⟩
      (Or.inl (show g.val < 170 from g.isLt))).trans
    (View.read_writes_cons_unit_of_mem (off' := ![0, 0, 0, 0]) v f inbF wF _ _ (ix4 b g cc r) rfl fun a => by
      match a with
      | ⟨0, _⟩ => show b.val = 0 + b.val; omega
      | ⟨1, _⟩ => show g.val = 0 + g.val; omega
      | ⟨2, _⟩ => show cc.val = 0 + cc.val; omega
      | ⟨3, _⟩ => show r.val = 0 + r.val; omega)

end TwoStores

variable {F : FTy → Type} [FloatOps F]

theorem zero_offsets : (![0, 0, 0, 0] : Fin 4 → Nat) = fun _ => 0 := funext fun a => by fin_cases a <;> rfl

/-- Row 170 of the buffer holds the last store's value. -/
theorem out_last (c : Dev nD) (i : grid0.Coords) (a1 : Memref sig .tc .vmem S2x512x10x8 .f32) (h1 : a1.IsWhole)
    (a2 : Memref sig .tc .vmem S2x171x10x8 .f32) (h2 : a2.IsWhole) (x0 : Vec F S2x512x10x8 .f32)
    (b : Fin 2) (cc : Fin 10) (r : Fin 8) :
    out0_A_1 c i a1 h1 a2 h2 x0 (ix4 b (⟨170, by decide⟩ : Fin 171) cc r) = k0_pay3 x0 (ix4 b (0 : Fin 1) cc r) := by
  unfold out0_A_1 kernelRun0_A
  dsimp only
  simp only [View.readAt_eq_ld, h1.read_unread, View.ld_unit_zero (S := S2x512x10x8) zero_offsets]
  exact read_last _ _ _ _ _ _ b cc r

/-- A row below 170 holds the first store's value. -/
theorem out_full (c : Dev nD) (i : grid0.Coords) (a1 : Memref sig .tc .vmem S2x512x10x8 .f32) (h1 : a1.IsWhole)
    (a2 : Memref sig .tc .vmem S2x171x10x8 .f32) (h2 : a2.IsWhole) (x0 : Vec F S2x512x10x8 .f32)
    (b : Fin 2) (g : Fin 170) (cc : Fin 10) (r : Fin 8) :
    out0_A_1 c i a1 h1 a2 h2 x0 (ix4 b (⟨g.val, by have := g.isLt; omega⟩ : Fin 171) cc r) = k0_pay2 x0 (ix4 b g cc r) := by
  unfold out0_A_1 kernelRun0_A
  dsimp only
  simp only [View.readAt_eq_ld, h1.read_unread, View.ld_unit_zero (S := S2x512x10x8) zero_offsets]
  exact read_full _ _ _ _ _ _ b g cc r

end Cert.KernelIdeal.Stores

end
-- ==== Proof.Payloads.lean ====
/-
  What the body's two stores hold, entry by entry, on the extended reals.

  The first store holds, at (b, g, c, r) with g < 170, the sum over k < 3 of the input block at (b, 3g + k, c, r): the
  block's first 510 rows are split into 170 groups of 3 (entry (g, k) of the split is row 3g + k) and each group is
  added up. The second store holds, at (b, 0, c, r), row 510 plus row 511 of the block.
-/
import proofs.«146789_j27994596836269_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payloads

open Cert.KernelIdeal Cert.KernelIdeal.Gen
open Idealize.ShloMosaic Idealize.ShloMosaic.ValueIdx

variable {α : Type}

/-- One row of a block, cut out with its unit row axis kept: entry (b, 0, c, r) is the block at (b, o, c, r). -/
theorem row_apply (v : S2x512x10x8.Idx → α) (o : ℕ) (ho : o < 512) (h : S2x512x10x8.Slices ![0, o, 0, 0] S2x1x10x8)
    (b : Fin 2) (c : Fin 10) (r : Fin 8) :
    extractStridedSlice S2x1x10x8 ![0, o, 0, 0] v h (ix4 b (0 : Fin 1) c r) = v (ix4 b ⟨o, ho⟩ c r) :=
  extractStridedSlice_apply _ v h _ _ fun a => by
    match a with
    | ⟨0, _⟩ => show b.val = 0 + b.val; omega
    | ⟨1, _⟩ => show o = o + 0; omega
    | ⟨2, _⟩ => show c.val = 0 + c.val; omega
    | ⟨3, _⟩ => show r.val = 0 + r.val; omega

/-- Dropping the unit row axis. -/
theorem drop_apply (v : S2x1x10x8.Idx → α) (h : S2x1x10x8.ShapeCasts S2x10x8) (b : Fin 2) (c : Fin 10) (r : Fin 8) :
    shapeCast S2x10x8 v h (ix3 b c r) = v (ix4 b (0 : Fin 1) c r) :=
  shapeCast_apply v h _ _ (by
    rw [Shape.rowMajor_val_three, Shape.rowMajor_val_four]
    show ((b.val * 1 + 0) * 10 + c.val) * 8 + r.val = (b.val * 10 + c.val) * 8 + r.val
    omega)

/-- Putting the unit row axis back. -/
theorem keep_apply (v : S2x10x8.Idx → α) (h : S2x10x8.ShapeCasts S2x1x10x8) (b : Fin 2) (c : Fin 10) (r : Fin 8) :
    shapeCast S2x1x10x8 v h (ix4 b (0 : Fin 1) c r) = v (ix3 b c r) :=
  shapeCast_apply v h _ _ (by
    rw [Shape.rowMajor_val_three, Shape.rowMajor_val_four]
    show (b.val * 10 + c.val) * 8 + r.val = ((b.val * 1 + 0) * 10 + c.val) * 8 + r.val
    omega)

/-- The second store's value: row 510 plus row 511. -/
theorem pay3_apply (x0 : Vec Ideal S2x512x10x8 .f32) (b : Fin 2) (c : Fin 10) (r : Fin 8) :
    k0_pay3 (F := Ideal) x0 (ix4 b (0 : Fin 1) c r)
      = x0 (ix4 b ⟨510, by decide⟩ c r) + x0 (ix4 b ⟨511, by decide⟩ c r) := by
  unfold k0_pay3 k0_pay1
  dsimp only
  rw [keep_apply, addf_apply, drop_apply, drop_apply, row_apply _ 510 (by decide), row_apply _ 511 (by decide),
    shapeCast_self]

/-- The first store's value: the sum of the three rows of group g. -/
theorem pay2_apply (x0 : Vec Ideal S2x512x10x8 .f32) (b : Fin 2) (g : Fin 170) (c : Fin 10) (r : Fin 8) :
    k0_pay2 (F := Ideal) x0 (ix4 b g c r)
      = ∑ k : Fin 3, x0 (ix4 b ⟨3 * g.val + k.val, by have := g.isLt; have := k.isLt; omega⟩ c r) := by
  unfold k0_pay2 k0_pay1
  dsimp only
  refine (Ideal.multiReduction_add_single _ _ reduces_S2x170x3x10x8_S2x170x10x8 _ _ (ix4 b g c r)).trans ?_
  refine Finset.sum_congr rfl fun k _ => ?_
  have hk3 : k.val < 3 := k.isLt
  have hk : 3 * g.val + k.val < 510 := by have := g.isLt; omega
  refine (shapeCast_apply _ _ _ (ix4 b (⟨3 * g.val + k.val, hk⟩ : Fin 510) c r) (by
    rw [Shape.rowMajor_val_four, Shape.rowMajor_val_five]
    show ((b.val * 510 + (3 * g.val + k.val)) * 10 + c.val) * 8 + r.val
      = (((b.val * 170 + g.val) * 3 + k.val) * 10 + c.val) * 8 + r.val
    omega)).trans ?_
  refine (extractStridedSlice_apply _ _ _ _ (ix4 b ⟨3 * g.val + k.val, by omega⟩ c r) fun a => by
    match a with
    | ⟨0, _⟩ => show b.val = 0 + b.val; omega
    | ⟨1, _⟩ => show 3 * g.val + k.val = 0 + (3 * g.val + k.val); omega
    | ⟨2, _⟩ => show c.val = 0 + c.val; omega
    | ⟨3, _⟩ => show r.val = 0 + r.val; omega).trans ?_
  rw [shapeCast_self]

end Cert.KernelIdeal.Payloads

end
-- ==== Proof.GroupSum.lean ====
/-
  Sums over groups of three consecutive rows of a 512-row axis, the last group short by one row.

  A column of 512 entries is continued by zeros past its end (`ext`), and group `g` of it is the sum of the
  entries 3g, 3g+1, 3g+2 of the continued column (`sum3`): three real entries for g < 170, and for g = 170 the
  two entries 510 and 511 (entry 512 is a zero of the continuation, and x + 0 = x on the extended reals).
  Groups 0 … 170 of every column of an array over [A, 512, 10, 8] form an array over [A, 171, 10, 8] (`rows4`);
  the same over [256, 4, 512, 10, 8] is `rows5`.
-/
import Idealize.ShloMosaic.PureOps.Ideal
import Idealize.ShloMosaic.Lib.ValueIdx

noncomputable section

open scoped BigOperators

namespace GroupSum

open Idealize.ShloMosaic Idealize.ShloMosaic.ValueIdx

/-- A column of 512 entries continued by zeros. -/
def ext (f : Fin 512 → EReal) (d : ℕ) : EReal := if h : d < 512 then f ⟨d, h⟩ else 0

theorem ext_of_lt (f : Fin 512 → EReal) {d : ℕ} (h : d < 512) : ext f d = f ⟨d, h⟩ := dif_pos h

theorem ext_of_ge (f : Fin 512 → EReal) {d : ℕ} (h : 512 ≤ d) : ext f d = 0 := dif_neg (by omega)

/-- Group `g` of a column: the sum of the entries 3g, 3g+1, 3g+2 of the continued column. -/
def sum3 (f : Fin 512 → EReal) (g : ℕ) : EReal := ∑ k : Fin 3, ext f (3 * g + k.val)

/-- A group below the last holds three entries of the column. -/
theorem sum3_full (f : Fin 512 → EReal) {g : ℕ} (hg : g < 170) :
    sum3 f g = ∑ k : Fin 3, f ⟨3 * g + k.val, by have := k.isLt; omega⟩ :=
  Finset.sum_congr rfl fun k _ => ext_of_lt f _

/-- The last group holds the column's last two entries: the third summand is a zero of the continuation. -/
theorem sum3_last (f : Fin 512 → EReal) : sum3 f 170 = f ⟨510, by decide⟩ + f ⟨511, by decide⟩ := by
  unfold sum3
  rw [Fin.sum_univ_three]
  show ext f 510 + ext f 511 + ext f 512 = _
  rw [ext_of_lt f (by decide : 510 < 512), ext_of_lt f (by decide : 511 < 512), ext_of_ge f (le_refl 512), add_zero]

/-- Arrays of `A` slabs of 512 rows, and of 171 groups. -/
abbrev In4 (A : ℕ) : Shape := ⟨4, ![A, 512, 10, 8]⟩
abbrev Out4 (A : ℕ) : Shape := ⟨4, ![A, 171, 10, 8]⟩
abbrev In5 : Shape := ⟨5, ![256, 4, 512, 10, 8]⟩
abbrev Out5 : Shape := ⟨5, ![256, 4, 171, 10, 8]⟩

/-- The groups of every column of an array over [A, 512, 10, 8]. -/
def rows4 {A : ℕ} (x : (In4 A).Idx → EReal) : (Out4 A).Idx → EReal :=
  fun i => sum3 (fun d => x (ix4 (i 0) d (i 2) (i 3))) (i 1).val

theorem rows4_apply {A : ℕ} (x : (In4 A).Idx → EReal) (b : Fin A) (g : Fin 171) (c : Fin 10) (r : Fin 8) :
    rows4 x (ix4 b g c r) = sum3 (fun d => x (ix4 b d c r)) g.val := rfl

/-- A group only adds entries of one column: when a block of two slabs is slabs 2t and 2t + 1 of an array, the
    groups of the block are the groups of those two slabs. -/
theorem rows4_block (X : (In4 1024).Idx → EReal) (x0 : (In4 2).Idx → EReal) (t : ℕ) (ht : t < 512)
    (hx : ∀ (b : Fin 2) (d : Fin 512) (c : Fin 10) (r : Fin 8),
      x0 (ix4 b d c r) = X (ix4 ⟨2 * t + b.val, by have := b.isLt; omega⟩ d c r))
    (b : Fin 2) (g : Fin 171) (c : Fin 10) (r : Fin 8) :
    rows4 x0 (ix4 b g c r) = rows4 X (ix4 ⟨2 * t + b.val, by have := b.isLt; omega⟩ g c r) := by
  rw [rows4_apply, rows4_apply]
  exact congrArg (fun f => sum3 f g.val) (funext fun d => hx b d c r)

/-- The groups of every column of an array over [256, 4, 512, 10, 8]. -/
def rows5 (x : In5.Idx → EReal) : Out5.Idx → EReal :=
  fun i => sum3 (fun d => x (ix5 (i 0) (i 1) d (i 3) (i 4))) (i 2).val

theorem rows5_apply (x : In5.Idx → EReal) (n : Fin 256) (w : Fin 4) (g : Fin 171) (c : Fin 10) (r : Fin 8) :
    rows5 x (ix5 n w g c r) = sum3 (fun d => x (ix5 n w d c r)) g.val := rfl

end GroupSum

end
-- ==== Proof.BodyRows.lean ====
/-
  The body leaves, in the output's staging buffer, the groups of rows of its input block.

  Rows 0 … 169 of the buffer hold the first store's value — at (b, g, c, r) the sum of the block's rows 3g, 3g+1,
  3g+2 — and row 170 holds the last store's value, the block's row 510 plus row 511. These are group g of the
  block's column (b, c, r) for g < 170, and its last, short group for g = 170.
-/
import proofs.«146789_j27994596836269_2_alg».proof.Proof.Stores
import proofs.«146789_j27994596836269_2_alg».proof.Proof.Payloads
import proofs.«146789_j27994596836269_2_alg».proof.Proof.GroupSum

noncomputable section

namespace Cert.KernelIdeal.BodyRows

open Cert.KernelIdeal Cert.KernelIdeal.Gen
open Idealize.ShloMosaic Idealize.ShloMosaic.TcCoe Idealize.ShloMosaic.ValueIdx Idealize.SL.Sem

/-- On the extended reals the buffer ends at the groups of the input block's columns. -/
theorem out_rows (c : Dev nD) (i : grid0.Coords) (a1 : Memref sig .tc .vmem S2x512x10x8 .f32) (h1 : a1.IsWhole)
    (a2 : Memref sig .tc .vmem S2x171x10x8 .f32) (h2 : a2.IsWhole) (x0 : Vec Ideal S2x512x10x8 .f32) :
    out0_A_1 (F := Ideal) c i a1 h1 a2 h2 x0 = GroupSum.rows4 x0 := by
  funext y
  obtain ⟨b, g, cc, r, rfl⟩ : ∃ (b : Fin 2) (g : Fin 171) (cc : Fin 10) (r : Fin 8), y = ix4 b g cc r :=
    ⟨y 0, y 1, y 2, y 3, eq_ix4 y⟩
  rw [GroupSum.rows4_apply]
  by_cases hg : g.val < 170
  · rw [GroupSum.sum3_full _ hg]
    refine (Stores.out_full c i a1 h1 a2 h2 x0 b ⟨g.val, hg⟩ cc r).trans ?_
    exact Payloads.pay2_apply x0 b ⟨g.val, hg⟩ cc r
  · have h170 : g.val = 170 := by have := g.isLt; omega
    obtain rfl : g = ⟨170, by decide⟩ := Fin.ext h170
    show _ = GroupSum.sum3 (fun d => x0 (ix4 b d cc r)) 170
    rw [GroupSum.sum3_last]
    refine (Stores.out_last c i a1 h1 a2 h2 x0 b cc r).trans ?_
    exact Payloads.pay3_apply x0 b cc r

end Cert.KernelIdeal.BodyRows

end
-- ==== Proof.ReshapeRows.lean ====
/-
  Taking groups of rows commutes with merging the two leading axes.

  Slab 4n + w of the array over [1024, 512, 10, 8] is column block (n, w) of the array over [256, 4, 512, 10, 8]
  (both reshapes keep the row-major position), and a group only adds entries of one column. So: merge the leading
  axes, take the groups of every slab, split the leading axis again — that is the groups of the unmerged array.
-/
import proofs.«146789_j27994596836269_2_alg».proof.Proof.GroupSum
import Idealize.ShloMosaic.Lib.Pipeline.Value

noncomputable section

namespace GroupSum

open Idealize.ShloMosaic Idealize.ShloMosaic.ValueIdx

/-- The merged array at slab 4n + w is the unmerged one at (n, w). -/
theorem merge_apply (x : In5.Idx → EReal) (h : In5.ShapeCasts (In4 1024)) (n : Fin 256) (w : Fin 4)
    (hb : 4 * n.val + w.val < 1024) (d : Fin 512) (c : Fin 10) (r : Fin 8) :
    shapeCast (In4 1024) x h (ix4 ⟨4 * n.val + w.val, hb⟩ d c r) = x (ix5 n w d c r) :=
  shapeCast_apply x h _ _ (by
    rw [Shape.rowMajor_val_four, Shape.rowMajor_val_five]
    show (((n.val * 4 + w.val) * 512 + d.val) * 10 + c.val) * 8 + r.val
      = (((4 * n.val + w.val) * 512 + d.val) * 10 + c.val) * 8 + r.val
    omega)

/-- Merge, take groups, split: the groups of the unmerged array. -/
theorem split_rows4_merge (x : In5.Idx → EReal) (h1 : In5.ShapeCasts (In4 1024)) (h2 : (Out4 1024).ShapeCasts Out5) :
    shapeCast Out5 (rows4 (shapeCast (In4 1024) x h1)) h2 = rows5 x := by
  funext i
  obtain ⟨n, w, g, c, r, rfl⟩ : ∃ (n : Fin 256) (w : Fin 4) (g : Fin 171) (c : Fin 10) (r : Fin 8), i = ix5 n w g c r :=
    ⟨i 0, i 1, i 2, i 3, i 4, eq_ix5 i⟩
  have hb : 4 * n.val + w.val < 1024 := by have := n.isLt; have := w.isLt; omega
  refine (shapeCast_apply _ h2 (ix5 n w g c r) (ix4 ⟨4 * n.val + w.val, hb⟩ g c r) (by
    rw [Shape.rowMajor_val_four, Shape.rowMajor_val_five]
    show (((4 * n.val + w.val) * 171 + g.val) * 10 + c.val) * 8 + r.val
      = (((n.val * 4 + w.val) * 171 + g.val) * 10 + c.val) * 8 + r.val
    omega)).trans ?_
  rw [rows4_apply, rows5_apply]
  exact congrArg (fun f => sum3 f g.val) (funext fun d => merge_apply x h1 n w hb d c r)

end GroupSum

end
-- ==== Proof.ArrayRows.lean ====
/-
  The kernel's result array is the groups of rows of its argument.

  Before the region the host merges the two leading axes of the argument; point t of the grid is given slabs 2t and
  2t + 1 of the merged array and writes back the groups of their columns, as slabs 2t and 2t + 1 of the output. The
  512 points cover all 1024 slabs, so the output array ends at the groups of the merged array's columns. After the
  region the host splits the leading axis again, and merging, taking groups and splitting is taking the groups of
  the argument itself.
-/
import proofs.«146789_j27994596836269_2_alg».proof.Proof.BodyRows
import proofs.«146789_j27994596836269_2_alg».proof.Proof.ReshapeRows
import Idealize.ShloMosaic.Lib.Pipeline.Value
import Idealize.ShloMosaic.Lib.StableHlo.Run

noncomputable section

namespace Cert.KernelIdeal.ArrayRows

open Cert.KernelIdeal Cert.KernelIdeal.Gen
open Idealize.ShloMosaic Idealize.ShloMosaic.TcCoe Idealize.ShloMosaic.ValueIdx Idealize.SL.Sem GroupSum
open Idealize.ShloMosaic.Pipeline (Dat)

variable (m : (ℓ : Loc nD τ sig) → Buf (Elt Ideal) ℓ) (ρ : Dev nD → PrngReg)

/-- Both windows move along the slab axis only: point t's block starts at block index t there, and at 0 on the
    other axes. -/
theorem index_facts : ∀ t : Fin cfg0.N,
    win0_0.index t (0 : Fin 4) = t.val ∧ win0_0.index t (1 : Fin 4) = 0 ∧ win0_0.index t (2 : Fin 4) = 0
    ∧ win0_0.index t (3 : Fin 4) = 0 ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

theorem point_lt (t : Fin cfg0.N) : t.val < 512 := by
  have h := t.isLt
  have hN : cfg0.N = 512 := N_0
  omega

/-- Slab 2t + b of the 1024. -/
def slab (t : Fin cfg0.N) (b : Fin 2) : Fin 1024 :=
  ⟨2 * t.val + b.val, by have := point_lt t; have := b.isLt; omega⟩

/-- The region finds the argument with its two leading axes merged. -/
theorem entry_eq (c : Dev nD) : (V m c main_v0 : S1024x512x10x8.Idx → EReal)
    = shapeCast S1024x512x10x8 (m ((c : Thread nD τ).loc main_arg0)) shapeCasts_S256x4x512x10x8_S1024x512x10x8 := by
  show StableHlo.after hostOps0 (fun b => m (c, b)) (Proc.devRef .tc main_v0) = _
  after_results
  rfl

/-- Point t's input block is slabs 2t and 2t + 1 of the merged array. -/
theorem iblk_apply (c : Dev nD) (t : Fin cfg0.N) (b : Fin 2) (d : Fin 512) (cc : Fin 10) (r : Fin 8) :
    (iblk m c 0 t : S2x512x10x8.Idx → EReal) (ix4 b d cc r)
      = (V m c main_v0 : S1024x512x10x8.Idx → EReal) (ix4 (slab t b) d cc r) := by
  obtain ⟨e0, e1, e2, e3, -⟩ := index_facts t
  have h : ((cfg0.win 0).blk t).view.emb (ix4 b d cc r) = ix4 (slab t b) d cc r := by
    funext a
    apply Fin.ext
    match a with
    | ⟨0, _⟩ => show win0_0.index t (0 : Fin 4) * 2 + 1 * b.val = 2 * t.val + b.val; rw [e0]; omega
    | ⟨1, _⟩ => show win0_0.index t (1 : Fin 4) * 512 + 1 * d.val = d.val; rw [e1]; omega
    | ⟨2, _⟩ => show win0_0.index t (2 : Fin 4) * 10 + 1 * cc.val = cc.val; rw [e2]; omega
    | ⟨3, _⟩ => show win0_0.index t (3 : Fin 4) * 8 + 1 * r.val = r.val; rw [e3]; omega
  unfold iblk
  rw [View.read_apply]
  show V m c main_v0 (((cfg0.win 0).blk t).view.emb (ix4 b d cc r)) = _
  rw [h]

/-- What point t writes back is block t of the groups of the merged array's columns. -/
theorem flushed_eq (c : Dev nD) (t : Fin cfg0.N) :
    (dats m 0 c).flushed 1 t
      = ((cfg0.win 1).blk t).view.read (Elt Ideal) (rows4 (V m c main_v0 : S1024x512x10x8.Idx → EReal)) := by
  show (cfg0.win 1).cut (grid0.coords t) ((dats m 0 c).after 1 t) = _
  rw [after0_1]
  unfold outsAt0
  refine (congrArg ((cfg0.win 1).cut (grid0.coords t))
    (BodyRows.out_rows c (grid0.coords t) (ms0_0 t) (hs0_0 t) (ms0_1 t) (hs0_1 t) (iblk m c 0 t))).trans ?_
  obtain ⟨-, -, -, -, e0, e1, e2, e3⟩ := index_facts t
  funext j
  obtain ⟨b, g, cc, r, rfl⟩ : ∃ (b : Fin 2) (g : Fin 171) (cc : Fin 10) (r : Fin 8), j = ix4 b g cc r :=
    ⟨j 0, j 1, j 2, j 3, eq_ix4 j⟩
  have h : ((cfg0.win 1).blk t).view.emb (ix4 b g cc r) = ix4 (slab t b) g cc r := by
    funext a
    apply Fin.ext
    match a with
    | ⟨0, _⟩ => show win0_1.index t (0 : Fin 4) * 2 + 1 * b.val = 2 * t.val + b.val; rw [e0]; omega
    | ⟨1, _⟩ => show win0_1.index t (1 : Fin 4) * 171 + 1 * g.val = g.val; rw [e1]; omega
    | ⟨2, _⟩ => show win0_1.index t (2 : Fin 4) * 10 + 1 * cc.val = cc.val; rw [e2]; omega
    | ⟨3, _⟩ => show win0_1.index t (3 : Fin 4) * 8 + 1 * r.val = r.val; rw [e3]; omega
  show rows4 (iblk m c 0 t : S2x512x10x8.Idx → EReal) (ix4 b g cc r)
    = rows4 (V m c main_v0 : S1024x512x10x8.Idx → EReal) (((cfg0.win 1).blk t).view.emb (ix4 b g cc r))
  rw [h]
  exact rows4_block (V m c main_v0) (iblk m c 0 t) t.val (point_lt t) (fun b d cc r => iblk_apply m c t b d cc r) b g cc r

/-- An index of the output array is in point t's block iff each coordinate is in the block's range on its axis. -/
theorem mem_blk (t : Fin cfg0.N) (i : S1024x171x10x8.Idx) :
    i ∈ ((cfg0.win 1).blk t).view.set ↔ ∀ a : Fin 4, win0_1.index t a * S2x171x10x8.size a ≤ (i a).val
      ∧ (i a).val < win0_1.index t a * S2x171x10x8.size a + S2x171x10x8.size a := by
  show i ∈ ((View.whole main_v1).slice (win0_1.rect t)).set ↔ _
  rw [View.set_slice_whole, Rect.mem_set_unit]
  exact Iff.rfl

/-- Slab s of the output is written back by point s / 2. -/
theorem cover (i : S1024x171x10x8.Idx) :
    ∃ t : Fin cfg0.N, (cfg0.win 1).flush t = true ∧ i ∈ ((cfg0.win 1).blk t).view.set := by
  have hN : cfg0.N = 512 := N_0
  have hi0 : (i 0).val < 1024 := (i 0).isLt
  have hi1 : (i 1).val < 171 := (i 1).isLt
  have hi2 : (i 2).val < 10 := (i 2).isLt
  have hi3 : (i 3).val < 8 := (i 3).isLt
  obtain ⟨t, ht⟩ : ∃ t : Fin cfg0.N, t.val = (i 0).val / 2 := ⟨⟨(i 0).val / 2, by omega⟩, rfl⟩
  obtain ⟨-, -, -, -, e0, e1, e2, e3⟩ := index_facts t
  refine ⟨t, flush0_1 t, ?_⟩
  rw [mem_blk]
  intro a
  match a with
  | ⟨0, _⟩ =>
    show win0_1.index t (0 : Fin 4) * 2 ≤ (i 0).val ∧ (i 0).val < win0_1.index t (0 : Fin 4) * 2 + 2
    rw [e0]; omega
  | ⟨1, _⟩ =>
    show win0_1.index t (1 : Fin 4) * 171 ≤ (i 1).val ∧ (i 1).val < win0_1.index t (1 : Fin 4) * 171 + 171
    rw [e1]; omega
  | ⟨2, _⟩ =>
    show win0_1.index t (2 : Fin 4) * 10 ≤ (i 2).val ∧ (i 2).val < win0_1.index t (2 : Fin 4) * 10 + 10
    rw [e2]; omega
  | ⟨3, _⟩ =>
    show win0_1.index t (3 : Fin 4) * 8 ≤ (i 3).val ∧ (i 3).val < win0_1.index t (3 : Fin 4) * 8 + 8
    rw [e3]; omega

/-- After the run the output array holds the groups of the merged array's columns. -/
theorem final (c : Dev nD) :
    (dats m 0 c).arrAt 1 cfg0.N = rows4 (V m c main_v0 : S1024x512x10x8.Idx → EReal) :=
  (dats m 0 c).arrAt_eq_of_cover 1 (rows4 (V m c main_v0 : S1024x512x10x8.Idx → EReal))
    (fun t _ => flushed_eq m c t) cover

/-- The host's last line splits the leading axis of the region's output array. -/
theorem tail_eq (c : Dev nD) :
    Pipeline.afterTail₀ cfgs (dats m) 0 (V0 m) [hostOps1] c main_v2
      = shapeCast S256x4x171x10x8
          (Pipeline.withArrays spec0 c (V0 m c) (fun w => (dats m 0 c).arrAt w cfg0.N) (Proc.devRef .tc main_v1))
          shapeCasts_S1024x171x10x8_S256x4x171x10x8 := by
  unfold Pipeline.afterTail₀
  show StableHlo.after hostOps1 _ (Proc.devRef .tc main_v2) = _
  after_results
  rfl

/-- So the result is the groups of the argument's columns. -/
theorem result_eq (c : Dev nD) :
    Pipeline.afterTail₀ cfgs (dats m) 0 (V0 m) [hostOps1] c main_v2 = rows5 (m ((c : Thread nD τ).loc main_arg0)) := by
  rw [tail_eq,
    show Pipeline.withArrays spec0 c (V0 m c) (fun w => (dats m 0 c).arrAt w cfg0.N) (Proc.devRef .tc main_v1)
        = rows4 (V m c main_v0 : S1024x512x10x8.Idx → EReal) from
      (Pipeline.withArrays_arr spec0 launch0.win.arr_inj c _ _ 1).trans (final m c),
    entry_eq]
  exact split_rows4_merge _ _ _

/-- The run, read: the result at the groups of the argument's columns, the argument unchanged. -/
theorem run : θ_run defs (onTc (τ := τ) (main (F := Ideal))) ⟨m, fun _ => 0, ρ⟩ fun r => ∀ c : Dev nD,
      r.2.mem ((c : Thread nD τ).loc main_v2) = rows5 (m ((c : Thread nD τ).loc main_arg0))
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c)⟩)
    (run_main m ρ)

end Cert.KernelIdeal.ArrayRows

end
-- ==== Proof.RefRows.lean ====
/-
  The reference computes the groups of rows.

  It pads the 512-row axis with one zero row (the pad value is an integer zero converted to a float: the real 0),
  so a column of the padded array is the column continued by zeros, read at rows 0 … 512. It then splits the
  513 rows into 171 groups of 3 — entry (g, k) is row 3g + k — and adds each group to 0. At every index that is
  the sum of the entries 3g, 3g+1, 3g+2 of the continued column.
-/
import proofs.«146789_j27994596836269_2_alg».proof.Proof.Gen.ReferenceIdeal.Read
import proofs.«146789_j27994596836269_2_alg».proof.Proof.GroupSum
import Idealize.ShloMosaic.Lib.KernelVsHost
import Idealize.ShloMosaic.Lib.ValueIdxRank6

noncomputable section

namespace Cert.ReferenceIdeal.RefRows

open Cert.ReferenceIdeal Cert.ReferenceIdeal.Gen Cert.ReferenceIdeal.Read
open Idealize.ShloMosaic Idealize.ShloMosaic.ValueIdx GroupSum

/-- The pad value is the real zero. -/
theorem pad_value : val_main_call0_v0 (F := Ideal) (Shape.Idx.first h_S_) = 0 := by
  rw [val_main_call0_v0_apply, val_main_c_apply]
  show (((0#32 : BitVec 32).toInt : ℝ) : EReal) = 0
  simp

/-- A column of the padded array is the column continued by zeros. -/
theorem padded_apply (x : (⟨S256x4x512x10x8, .f32⟩ : BufTy).Contents (Elt Ideal)) (n : Fin 256) (w : Fin 4) (d : Fin 513)
    (c : Fin 10) (r : Fin 8) :
    val_main_v0 (F := Ideal) x (ix5 n w d c r) = ext (fun d' => x (ix5 n w d' c r)) d.val := by
  unfold val_main_v0
  by_cases hd : d.val < 512
  · rw [ext_of_lt _ hd]
    refine pad_apply_of_inside _ _ _ x _ _ _ (ix5 n w d c r) (ix5 n w ⟨d.val, hd⟩ c r) fun a => ?_
    match a with
    | ⟨0, _⟩ => show n.val = 0 + n.val * (0 + 1); omega
    | ⟨1, _⟩ => show w.val = 0 + w.val * (0 + 1); omega
    | ⟨2, _⟩ => show d.val = 0 + d.val * (0 + 1); omega
    | ⟨3, _⟩ => show c.val = 0 + c.val * (0 + 1); omega
    | ⟨4, _⟩ => show r.val = 0 + r.val * (0 + 1); omega
  · rw [ext_of_ge _ (by omega)]
    refine (pad_apply_of_not_inside _ _ _ x _ _ _ (ix5 n w d c r) ⟨2, by decide⟩ fun h => hd ?_).trans pad_value
    have h3 : (d.val - 0) / (0 + 1) < 512 := h.2.2
    simpa using h3

/-- Entry (g, k) of the split array is row 3g + k. -/
theorem split_apply (y : S256x4x513x10x8.Idx → EReal) (n : Fin 256) (w : Fin 4) (g : Fin 171) (k : Fin 3)
    (c : Fin 10) (r : Fin 8) :
    shapeCast S256x4x171x3x10x8 y shapeCasts_S256x4x513x10x8_S256x4x171x3x10x8 (ix6 n w g k c r)
      = y (ix5 n w ⟨3 * g.val + k.val, by have := g.isLt; have := k.isLt; omega⟩ c r) :=
  shapeCast_apply y _ _ _ (by
    rw [Shape.rowMajor_val_five, Shape.rowMajor_val_six]
    show (((n.val * 4 + w.val) * 513 + (3 * g.val + k.val)) * 10 + c.val) * 8 + r.val
      = ((((n.val * 4 + w.val) * 171 + g.val) * 3 + k.val) * 10 + c.val) * 8 + r.val
    omega)

/-- The reference's result is the groups of rows of its argument. -/
theorem ref_rows (x : (⟨S256x4x512x10x8, .f32⟩ : BufTy).Contents (Elt Ideal)) : val_main_v2 (F := Ideal) x = rows5 x := by
  funext i
  obtain ⟨n, w, g, c, r, rfl⟩ : ∃ (n : Fin 256) (w : Fin 4) (g : Fin 171) (c : Fin 10) (r : Fin 8), i = ix5 n w g c r :=
    ⟨i 0, i 1, i 2, i 3, i 4, eq_ix5 i⟩
  rw [val_main_v2_apply, val_main_cst_apply, rows5_apply]
  show Ideal.ofBits .f32 0x00000000#32 + _ = _
  rw [Ideal.ofBits_zero_f32, zero_add]
  refine Finset.sum_congr rfl fun k _ => ?_
  have e : idx_main_v2 (ix5 n w g c r) k = ix6 n w g k c r := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e]
  unfold val_main_v1
  rw [split_apply]
  exact padded_apply x n w _ c r

end Cert.ReferenceIdeal.RefRows

end
-- ==== Proof.lean ====
/-
  Sums over groups of three rows: a tiled kernel against pad, reshape and reduce.

  The argument x is an array over [256, 4, 512, 10, 8]. Both programs return, over [256, 4, 171, 10, 8], at
  (n, w, g, c, r) the sum of the rows 3g, 3g+1, 3g+2 of column (n, w, ·, c, r) of x that exist: three rows for
  g < 170, and rows 510 and 511 for g = 170.

  The reference pads the row axis with one zero row, splits the 513 rows into 171 groups of 3 and adds each group
  to 0: the sum of three entries of the column continued by zeros. The kernel merges the two leading axes into
  1024 slabs, hands slabs 2t and 2t + 1 to point t of a grid of 512 points, and there adds the three rows of each
  of the first 170 groups and, separately, rows 510 and 511; the blocks written back cover the output, whose
  leading axis is split again afterwards. The two results differ only by a summand 0 in the last group and by the
  order of the layout steps, so they are equal on the extended reals, with no use of finiteness: x + 0 = x and
  reordering a finite sum hold there without exception.

  The kernel's idealization rewrites nothing, so it is the kernel's own text read on the extended reals.
-/
import proofs.«146789_j27994596836269_2_alg».proof.Defs
import proofs.«146789_j27994596836269_2_alg».proof.Proof.Gen.Kernel
import proofs.«146789_j27994596836269_2_alg».proof.Proof.Gen.Kernel.Frame
import proofs.«146789_j27994596836269_2_alg».proof.Proof.Gen.KernelIdeal
import proofs.«146789_j27994596836269_2_alg».proof.Proof.Gen.KernelIdeal.Frame
import proofs.«146789_j27994596836269_2_alg».proof.Proof.Gen.ReferenceIdeal
import proofs.«146789_j27994596836269_2_alg».proof.Proof.Gen.ReferenceIdeal.Run
import proofs.«146789_j27994596836269_2_alg».proof.Proof.Gen.ReferenceIdeal.Read
import proofs.«146789_j27994596836269_2_alg».proof.Proof.Gen.Pre_finite_inputs
import proofs.«146789_j27994596836269_2_alg».proof.Proof.ArrayRows
import proofs.«146789_j27994596836269_2_alg».proof.Proof.RefRows
import Idealize.ShloMosaic.Adequacy
import Idealize.ShloMosaic.Init

noncomputable section

namespace Cert.Proof

open Idealize.ShloMosaic Idealize.ShloMosaic.TcCoe Idealize.SL.Sem

/-- Each kernel program runs to the end, faults nowhere and leaves its argument as it was. -/
theorem frame_kernel : Cert.frame_Kernel := fun m ρ _ => Cert.Kernel.Gen.frame m ρ

theorem frame_kernelIdeal : Cert.frame_KernelIdeal := fun m ρ _ => Cert.KernelIdeal.Gen.frame m ρ

/-- So does the reference: its run with the result's value forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten in the kernel's idealization. -/
theorem preserves : Cert.preserves_Kernel_KernelIdeal := trivial

/-- On the extended reals the kernel's result and the reference's are both the groups of rows of the argument's
    columns, of arguments that agree. -/
theorem algebraic : Cert.algebraic_KernelIdeal_ReferenceIdeal := by
  intro m ρ m' ρ' _ hagree
  refine ⟨fun c => GroupSum.rows5 (m ((c.tc : Thread Cert.KernelIdeal.nD Cert.KernelIdeal.τ).loc Cert.KernelIdeal.main_arg0)),
    Cert.KernelIdeal.ArrayRows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefRows.ref_rows, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
